-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 67
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product of the matrix unit read at an element.

  A `tpu.matmul` into the zero accumulator with the dimension numbers `[1] x [0]` of an `[M, K]` by `[K, N]` product
  holds at the element `(a, b)` the sum over `c` of the left operand's `(a, c)` times the right operand's `(c, b)`:
  the sum over the contraction shape's one axis, re-indexed by `Fin K`. (The host's `dot_general` with the same
  dimension numbers is that same sum.)
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain `[M, K] x [K, N]` product at `(a, b)` is `∑ c, A (a, c) * B (c, b)`. -/
theorem sum_eq {M K N : Nat} (A : (⟨2, ![M, K]⟩ : Shape).Idx → EReal) (B : (⟨2, ![K, N]⟩ : Shape).Idx → EReal)
    (a : Fin M) (b : Fin N) :
    ∑ c : (DotDims.plain M K N).contr.Idx,
        A ((DotDims.plain M K N).lhsIdx (ix2 a b) c) * B ((DotDims.plain M K N).rhsIdx (ix2 a b) c)
      = ∑ c : Fin K, A (ix2 a c) * B (ix2 c b) := by
  rw [← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The matrix unit's plain product into the zero accumulator, at `(a, b)`. -/
theorem matmul_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply]
  exact sum_eq A B a b

end Cert.Lib.PlainDot

end
-- ==== Proof.DenseBlock.lean ====
/-
  One dense layer on a block of 5000 rows.

  The body of either kernel loads a block `a` of aggregated neighbour features and a block `x` of root features
  (5000 rows of 128 lanes each), the two 128 x 128 weight matrices `wl`, `wr` and the bias as one row `b`, and stores

      a · wl + x · wr + b            (second layer)
      max (a · wl + x · wr + b) 0    (first layer)

  where the products are matrix products into a zero accumulator. At the exact instance a change of float format is
  the identity, so the operands rounded to bf16 are the operands, and each product at row `p`, lane `q` is the plain
  sum over `k` of `a (p, k) * wl (k, q)`.

  The second half says what that means for whole arrays. If the block `a` is rows `base … base + 4999` of an array
  `A`, likewise `x` of `X`, the weights are whole arrays and the bias row is the row form of a vector `B`, then the
  stored block is rows `base …` of any `G` that is the layer `A · WL + B + X · WR` of the whole arrays, entry by
  entry. The body adds the bias last and `G` adds it between the two products: sums of extended reals commute and
  associate without any finiteness, and that is the one law used.
-/
import proofs.«113111_j17678085391128_1_alg».proof.Proof.Gen.KernelIdeal.Skeleton
import proofs.«113111_j17678085391128_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Sage

open Idealize.ShloMosaic Idealize.ShloMosaic.ValueIdx Cert.KernelIdeal Cert.KernelIdeal.Gen

/-- The zero the first layer clamps against, kept as its word: both programs spell it so. -/
abbrev zeroWord : EReal := Ideal.ofBits .f32 0x00000000#32

/-- A 5000 x 128 by 128 x 128 product of the matrix unit into the zero accumulator, at row `p`, lane `q`. -/
theorem product_at (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) :=
  Cert.Lib.PlainDot.matmul_zero_apply (M := 5000) (K := 128) (N := 128) none A B p q

/-- The first layer's stored block at row `p`, lane `q`. -/
theorem relu_block_apply (a x : Vec Ideal S5000x128 .f32) (wl wr : Vec Ideal S128x128 .f32) (b : Vec Ideal S1x128 .f32)
    (p : Fin 5000) (q : Fin 128) :
    k0_pay1 (F := Ideal) a x wl wr b (ix2 p q)
      = max ((∑ k : Fin 128, a (ix2 p k) * wl (ix2 k q)) + (∑ k : Fin 128, x (ix2 p k) * wr (ix2 k q))
          + b (ix2 (0 : Fin 1) q)) zeroWord := by
  unfold k0_pay1
  simp only [shapeCast_self]
  rw [maximumf_apply, addf_apply, addf_apply, broadcast_apply, product_at, product_at, broadcastTo_1b_ab_apply]
  simp only [truncf_apply]
  rfl

/-- The second layer's stored block at row `p`, lane `q`. -/
theorem lin_block_apply (a x : Vec Ideal S5000x128 .f32) (wl wr : Vec Ideal S128x128 .f32) (b : Vec Ideal S1x128 .f32)
    (p : Fin 5000) (q : Fin 128) :
    k1_pay1 (F := Ideal) a x wl wr b (ix2 p q)
      = (∑ k : Fin 128, a (ix2 p k) * wl (ix2 k q)) + (∑ k : Fin 128, x (ix2 p k) * wr (ix2 k q))
          + b (ix2 (0 : Fin 1) q) := by
  unfold k1_pay1
  simp only [shapeCast_self]
  rw [addf_apply, addf_apply, product_at, product_at, broadcastTo_1b_ab_apply]
  simp only [truncf_apply]

/-- `G` is the affine layer `A · WL + B + X · WR` of whole arrays, entry by entry. -/
def IsLayer (G A X : (⟨2, ![100000, 128]⟩ : Shape).Idx → EReal) (WL WR : (⟨2, ![128, 128]⟩ : Shape).Idx → EReal)
    (B : (⟨1, ![128]⟩ : Shape).Idx → EReal) : Prop :=
  ∀ (r : Fin 100000) (q : Fin 128),
    G (ix2 r q) = (∑ k : Fin 128, A (ix2 r k) * WL (ix2 k q)) + B (ix1 q) + (∑ k : Fin 128, X (ix2 r k) * WR (ix2 k q))

/-- `G` is that layer clamped below at zero. -/
def IsReluLayer (G A X : (⟨2, ![100000, 128]⟩ : Shape).Idx → EReal) (WL WR : (⟨2, ![128, 128]⟩ : Shape).Idx → EReal)
    (B : (⟨1, ![128]⟩ : Shape).Idx → EReal) : Prop :=
  ∀ (r : Fin 100000) (q : Fin 128),
    G (ix2 r q) = max ((∑ k : Fin 128, A (ix2 r k) * WL (ix2 k q)) + B (ix1 q)
        + (∑ k : Fin 128, X (ix2 r k) * WR (ix2 k q))) zeroWord

/-- How a 5000-row block sits in a 100000-row array: entry `y` of the block is the array's entry `i` whenever `i` is
    `y` moved down by `base` rows. -/
def RowsOf (a : (⟨2, ![5000, 128]⟩ : Shape).Idx → EReal) (A : (⟨2, ![100000, 128]⟩ : Shape).Idx → EReal) (base : Nat) : Prop :=
  ∀ (y : (⟨2, ![5000, 128]⟩ : Shape).Idx) (i : (⟨2, ![100000, 128]⟩ : Shape).Idx),
    (i 0).val = base + (y 0).val → (i 1).val = (y 1).val → a y = A i

/-- The sums of a block's row against a weight matrix are the array's row's. -/
theorem sum_rows {a : (⟨2, ![5000, 128]⟩ : Shape).Idx → EReal} {A : (⟨2, ![100000, 128]⟩ : Shape).Idx → EReal} {base : Nat}
    (h : RowsOf a A base) (W : (⟨2, ![128, 128]⟩ : Shape).Idx → EReal) (p : Fin 5000) (r : Fin 100000) (q : Fin 128)
    (hr : r.val = base + p.val) :
    (∑ k : Fin 128, a (ix2 p k) * W (ix2 k q)) = ∑ k : Fin 128, A (ix2 r k) * W (ix2 k q) :=
  Finset.sum_congr rfl fun k _ => by rw [h (ix2 p k) (ix2 r k) hr rfl]

/-- The first layer's stored block is rows `base …` of `G`. -/
theorem relu_block_eq (a x : Vec Ideal S5000x128 .f32) (wl wr : Vec Ideal S128x128 .f32) (b : Vec Ideal S1x128 .f32)
    (G A X : (⟨2, ![100000, 128]⟩ : Shape).Idx → EReal) (WL WR : (⟨2, ![128, 128]⟩ : Shape).Idx → EReal)
    (B : (⟨1, ![128]⟩ : Shape).Idx → EReal) (base : Nat)
    (ha : RowsOf a A base) (hx : RowsOf x X base) (hwl : wl = WL) (hwr : wr = WR)
    (hb : ∀ q : Fin 128, b (ix2 (0 : Fin 1) q) = B (ix1 q))
    (hG : IsReluLayer G A X WL WR B)
    (y : (⟨2, ![5000, 128]⟩ : Shape).Idx) (i : (⟨2, ![100000, 128]⟩ : Shape).Idx)
    (hi0 : (i 0).val = base + (y 0).val) (hi1 : (i 1).val = (y 1).val) :
    k0_pay1 (F := Ideal) a x wl wr b y = G i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  have hr : r.val = base + p.val := hi0
  rw [relu_block_apply, hG r q', sum_rows ha wl p r q' hr, sum_rows hx wr p r q' hr, hb q', hwl, hwr, add_right_comm]

/-- The second layer's stored block is rows `base …` of `G`. -/
theorem lin_block_eq (a x : Vec Ideal S5000x128 .f32) (wl wr : Vec Ideal S128x128 .f32) (b : Vec Ideal S1x128 .f32)
    (G A X : (⟨2, ![100000, 128]⟩ : Shape).Idx → EReal) (WL WR : (⟨2, ![128, 128]⟩ : Shape).Idx → EReal)
    (B : (⟨1, ![128]⟩ : Shape).Idx → EReal) (base : Nat)
    (ha : RowsOf a A base) (hx : RowsOf x X base) (hwl : wl = WL) (hwr : wr = WR)
    (hb : ∀ q : Fin 128, b (ix2 (0 : Fin 1) q) = B (ix1 q))
    (hG : IsLayer G A X WL WR B)
    (y : (⟨2, ![5000, 128]⟩ : Shape).Idx) (i : (⟨2, ![100000, 128]⟩ : Shape).Idx)
    (hi0 : (i 0).val = base + (y 0).val) (hi1 : (i 1).val = (y 1).val) :
    k1_pay1 (F := Ideal) a x wl wr b y = G i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  have hr : r.val = base + p.val := hi0
  rw [lin_block_apply, hG r q', sum_rows ha wl p r q' hr, sum_rows hx wr p r q' hr, hb q', hwl, hwr, add_right_comm]

end Cert.Sage

end
-- ==== Proof.Region0.lean ====
/-
  The array region 0 leaves: the first layer, clamped below at zero.

  The region runs its body at 20 grid points. At point `t` the two row-blocked operands are staged as rows
  `5000 t … 5000 t + 4999` of their arrays, the two weight matrices and the bias row whole, and the body's stored
  block is written back to rows `5000 t …` of the result. So if `G` is the layer of the arrays as the region finds
  them, every write-back is a block of `G`; the 20 blocks cover the 100000 rows (row `r` is in block `r / 5000`);
  hence the result array ends holding `G`.
-/
import proofs.«113111_j17678085391128_1_alg».proof.Proof.Gen.KernelIdeal.Frame
import proofs.«113111_j17678085391128_1_alg».proof.Proof.DenseBlock
import Idealize.ShloMosaic.Lib.Pipeline.Value

noncomputable section

namespace Cert.Sage.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block is some point's. -/
theorem idx_onto : ∀ q0 : Fin 20, ∃ t : Fin cfg0.N, win0_5.index t (0 : Fin 2) = q0.val ∧ win0_5.index t (1 : Fin 2) = 0 :=
  (by decide +kernel : ∀ q0 : Fin 20, ∃ t : Fin grid0.N, win0_5.index t (0 : Fin 2) = q0.val ∧ win0_5.index t (1 : Fin 2) = 0)

/-- Window 0's block at point `t` is rows `5000 t …` of its array. -/
theorem rows_0 (c : Dev nD) (t : Fin cfg0.N) : RowsOf (iblk0 V c 0 t) (V c main_v27) (5000 * t.val) := by
  intro y i h0 h1
  obtain ⟨e0, e1, -⟩ := idx_facts t
  unfold iblk0
  rw [View.read_apply]
  show V c main_v27 _ = V c main_v27 i
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Window 1's block at point `t` is rows `5000 t …` of its array. -/
theorem rows_1 (c : Dev nD) (t : Fin cfg0.N) : RowsOf (iblk0 V c 1 t) (V c main_arg0) (5000 * t.val) := by
  intro y i h0 h1
  obtain ⟨-, -, e0, e1, -⟩ := idx_facts t
  unfold iblk0
  rw [View.read_apply]
  show V c main_arg0 _ = V c main_arg0 i
  refine congrArg _ (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- Window 2's one block is its whole array. -/
theorem whole_2 (c : Dev nD) (t : Fin cfg0.N) : (iblk0 V c 2 t : Vec Ideal S128x128 .f32) = V c main_arg2 := by
  obtain ⟨-, -, -, -, e0, e1, -⟩ := idx_facts t
  funext y
  unfold iblk0
  rw [View.read_apply]
  show V c main_arg2 _ = V c main_arg2 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Window 4's one block is its whole array. -/
theorem whole_4 (c : Dev nD) (t : Fin cfg0.N) : (iblk0 V c 4 t : Vec Ideal S128x128 .f32) = V c main_arg4 := by
  obtain ⟨-, -, -, -, -, -, -, -, e0, e1, -⟩ := idx_facts t
  funext y
  unfold iblk0
  rw [View.read_apply]
  show V c main_arg4 _ = V c main_arg4 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 3's one block is its whole array, the bias as one row. -/
theorem whole_3 (c : Dev nD) (t : Fin cfg0.N) : (iblk0 V c 3 t : Vec Ideal S1x128 .f32) = V c main_v28 := by
  obtain ⟨-, -, -, -, -, -, e0, e1, -⟩ := idx_facts t
  funext y
  unfold iblk0
  rw [View.read_apply]
  show V c main_v28 _ = V c main_v28 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- WHAT POINT `t` WRITES BACK is rows `5000 t …` of `G`, when `G` is the layer of the arrays as the region finds them
    (`B` the bias as a vector, whose row form the region stages). -/
theorem flushed_eq (c : Dev nD) (t : Fin cfg0.N) (G : (⟨2, ![100000, 128]⟩ : Shape).Idx → EReal)
    (B : (⟨1, ![128]⟩ : Shape).Idx → EReal)
    (hB : ∀ q : Fin 128, (V c main_v28 : (⟨2, ![1, 128]⟩ : Shape).Idx → EReal) (ix2 (0 : Fin 1) q) = B (ix1 q))
    (hG : IsReluLayer G (V c main_v27) (V c main_arg0) (V c main_arg2) (V c main_arg4) B) :
    (dat0 V c).flushed 5 t = ((cfg0.win 5).blk t).view.read (Elt Ideal) G := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  show k0_pay1 (F := Ideal) (iblk0 V c 0 t) (iblk0 V c 1 t) (iblk0 V c 2 t) (iblk0 V c 4 t) (iblk0 V c 3 t) j
    = G (((cfg0.win 5).blk t).view.emb j)
  refine relu_block_eq _ _ _ _ _ G _ _ _ _ B (5000 * t.val) (rows_0 V c t) (rows_1 V c t) (whole_2 V c t) (whole_4 V c t)
    (fun q => by rw [whole_3 V c t]; exact hB q) hG j _ ?_ ?_
  · show win0_5.index t (0 : Fin 2) * 5000 + 1 * (j 0).val = 5000 * t.val + (j 0).val
    rw [e0]; omega
  · show win0_5.index t (1 : Fin 2) * 128 + 1 * (j 1).val = (j 1).val
    rw [e1]; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- The 20 blocks cover the array: row `r` is in the block of point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, q0, q1⟩ := idx_onto ⟨(i 0).val / 5000, by omega⟩
  have q0' : win0_5.index t (0 : Fin 2) = (i 0).val / 5000 := q0
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the region is `G`. -/
theorem array (c : Dev nD) (G : (⟨2, ![100000, 128]⟩ : Shape).Idx → EReal) (B : (⟨1, ![128]⟩ : Shape).Idx → EReal)
    (hB : ∀ q : Fin 128, (V c main_v28 : (⟨2, ![1, 128]⟩ : Shape).Idx → EReal) (ix2 (0 : Fin 1) q) = B (ix1 q))
    (hG : IsReluLayer G (V c main_v27) (V c main_arg0) (V c main_arg2) (V c main_arg4) B) :
    (dat0 V c).arrAt 5 cfg0.N = G :=
  (dat0 V c).arrAt_eq_of_cover 5 G (fun t _ => flushed_eq V c t G B hB hG) cover

end Cert.Sage.Region0

end
-- ==== Proof.Region1.lean ====
/-
  The array region 1 leaves: the second layer.

  The region runs its body at 20 grid points. At point `t` the two row-blocked operands are staged as rows
  `5000 t … 5000 t + 4999` of their arrays, the two weight matrices and the bias row whole, and the body's stored
  block is written back to rows `5000 t …` of the result. So if `G` is the layer of the arrays as the region finds
  them, every write-back is a block of `G`; the 20 blocks cover the 100000 rows (row `r` is in block `r / 5000`);
  hence the result array ends holding `G`.
-/
import proofs.«113111_j17678085391128_1_alg».proof.Proof.Gen.KernelIdeal.Frame
import proofs.«113111_j17678085391128_1_alg».proof.Proof.DenseBlock
import Idealize.ShloMosaic.Lib.Pipeline.Value

noncomputable section

namespace Cert.Sage.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block is some point's. -/
theorem idx_onto : ∀ q0 : Fin 20, ∃ t : Fin cfg1.N, win1_5.index t (0 : Fin 2) = q0.val ∧ win1_5.index t (1 : Fin 2) = 0 :=
  (by decide +kernel : ∀ q0 : Fin 20, ∃ t : Fin grid1.N, win1_5.index t (0 : Fin 2) = q0.val ∧ win1_5.index t (1 : Fin 2) = 0)

/-- Window 0's block at point `t` is rows `5000 t …` of its array. -/
theorem rows_0 (c : Dev nD) (t : Fin cfg1.N) : RowsOf (iblk1 V c 0 t) (V c main_v42) (5000 * t.val) := by
  intro y i h0 h1
  obtain ⟨e0, e1, -⟩ := idx_facts t
  unfold iblk1
  rw [View.read_apply]
  show V c main_v42 _ = V c main_v42 i
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Window 1's block at point `t` is rows `5000 t …` of its array. -/
theorem rows_1 (c : Dev nD) (t : Fin cfg1.N) : RowsOf (iblk1 V c 1 t) (V c main_v29) (5000 * t.val) := by
  intro y i h0 h1
  obtain ⟨-, -, e0, e1, -⟩ := idx_facts t
  unfold iblk1
  rw [View.read_apply]
  show V c main_v29 _ = V c main_v29 i
  refine congrArg _ (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- Window 2's one block is its whole array. -/
theorem whole_2 (c : Dev nD) (t : Fin cfg1.N) : (iblk1 V c 2 t : Vec Ideal S128x128 .f32) = V c main_arg5 := by
  obtain ⟨-, -, -, -, e0, e1, -⟩ := idx_facts t
  funext y
  unfold iblk1
  rw [View.read_apply]
  show V c main_arg5 _ = V c main_arg5 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- Window 4's one block is its whole array. -/
theorem whole_4 (c : Dev nD) (t : Fin cfg1.N) : (iblk1 V c 4 t : Vec Ideal S128x128 .f32) = V c main_arg7 := by
  obtain ⟨-, -, -, -, -, -, -, -, e0, e1, -⟩ := idx_facts t
  funext y
  unfold iblk1
  rw [View.read_apply]
  show V c main_arg7 _ = V c main_arg7 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 3's one block is its whole array, the bias as one row. -/
theorem whole_3 (c : Dev nD) (t : Fin cfg1.N) : (iblk1 V c 3 t : Vec Ideal S1x128 .f32) = V c main_v43 := by
  obtain ⟨-, -, -, -, -, -, e0, e1, -⟩ := idx_facts t
  funext y
  unfold iblk1
  rw [View.read_apply]
  show V c main_v43 _ = V c main_v43 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- WHAT POINT `t` WRITES BACK is rows `5000 t …` of `G`, when `G` is the layer of the arrays as the region finds them
    (`B` the bias as a vector, whose row form the region stages). -/
theorem flushed_eq (c : Dev nD) (t : Fin cfg1.N) (G : (⟨2, ![100000, 128]⟩ : Shape).Idx → EReal)
    (B : (⟨1, ![128]⟩ : Shape).Idx → EReal)
    (hB : ∀ q : Fin 128, (V c main_v43 : (⟨2, ![1, 128]⟩ : Shape).Idx → EReal) (ix2 (0 : Fin 1) q) = B (ix1 q))
    (hG : IsLayer G (V c main_v42) (V c main_v29) (V c main_arg5) (V c main_arg7) B) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  show k1_pay1 (F := Ideal) (iblk1 V c 0 t) (iblk1 V c 1 t) (iblk1 V c 2 t) (iblk1 V c 4 t) (iblk1 V c 3 t) j
    = G (((cfg1.win 5).blk t).view.emb j)
  refine lin_block_eq _ _ _ _ _ G _ _ _ _ B (5000 * t.val) (rows_0 V c t) (rows_1 V c t) (whole_2 V c t) (whole_4 V c t)
    (fun q => by rw [whole_3 V c t]; exact hB q) hG j _ ?_ ?_
  · show win1_5.index t (0 : Fin 2) * 5000 + 1 * (j 0).val = 5000 * t.val + (j 0).val
    rw [e0]; omega
  · show win1_5.index t (1 : Fin 2) * 128 + 1 * (j 1).val = (j 1).val
    rw [e1]; omega

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- The 20 blocks cover the array: row `r` is in the block of point `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, q0, q1⟩ := idx_onto ⟨(i 0).val / 5000, by omega⟩
  have q0' : win1_5.index t (0 : Fin 2) = (i 0).val / 5000 := q0
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the region is `G`. -/
theorem array (c : Dev nD) (G : (⟨2, ![100000, 128]⟩ : Shape).Idx → EReal) (B : (⟨1, ![128]⟩ : Shape).Idx → EReal)
    (hB : ∀ q : Fin 128, (V c main_v43 : (⟨2, ![1, 128]⟩ : Shape).Idx → EReal) (ix2 (0 : Fin 1) q) = B (ix1 q))
    (hG : IsLayer G (V c main_v42) (V c main_v29) (V c main_arg5) (V c main_arg7) B) :
    (dat1 V c).arrAt 5 cfg1.N = G :=
  (dat1 V c).arrAt_eq_of_cover 5 G (fun t _ => flushed_eq V c t G B hB hG) cover

end Cert.Sage.Region1

end
-- ==== Proof.HostStretches.lean ====
/-
  The host operations around the two regions, read off the kernel program's buffers.

  Before the first region the kernel program computes, with the same operations in the same order as the reference,
  the source and destination node of every edge, each node's in-degree and its reciprocal (zero for an isolated
  node), and the mean of the source features over each node's incoming edges. Between the regions it aggregates the
  hidden array the same way. Each bias vector is staged as one row. So the buffers the regions read hold the
  reference's own stages of the same arguments; the aggregation is never opened — it is the same composite of
  gather, scatter-add and scaling on both sides.
-/
import proofs.«113111_j17678085391128_1_alg».proof.Proof.Gen.KernelIdeal.Frame
import proofs.«113111_j17678085391128_1_alg».proof.Proof.RefReadPatched
import Idealize.ShloMosaic.Lib.ValueLayout

set_option maxRecDepth 16384

noncomputable section

namespace Cert.Sage.Host

open Cert.KernelIdeal Cert.KernelIdeal.Gen Idealize.ShloMosaic Idealize.ShloMosaic.TcCoe Idealize.SL.Sem
open Idealize.ShloMosaic.ValueIdx Idealize.ShloMosaic.StableHlo
open Cert.ReferenceIdeal.ReadP

variable (m : (ℓ : Loc nD τ sig) → Buf (Elt Ideal) ℓ) (ρ : Dev nD → PrngReg)

/-! ## The shared host computations, named -/

/-- The source node of every edge: row 0 of the edge list. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The destination node of every edge: row 1 of the edge list. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- Every node's in-degree: ones added at the destinations. -/
def degOf (e : (⟨S2x1600000, .i32⟩ : BufTy).Contents (Elt Ideal)) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dstOf e))
    (broadcastInDim S1600000 ![] bcast_S_S1600000 (constant (F := Ideal) S_ .f32 0x3F800000#32))

/-- Which nodes have an incoming edge. -/
def hasEdge (e : (⟨S2x1600000, .i32⟩ : BufTy).Contents (Elt Ideal)) : (⟨S100000, .i1⟩ : BufTy).Contents (Elt Ideal) :=
  cmpf (F := Ideal) .ogt (degOf e) (broadcastInDim S100000 ![] bcast_S_S100000 (constant (F := Ideal) S_ .f32 0x00000000#32))

/-- One over the in-degree, the degree clamped below at one. -/
def recipDeg (e : (⟨S2x1600000, .i32⟩ : BufTy).Contents (Elt Ideal)) : FVec Ideal S100000 .f32 :=
  Host.divf (F := Ideal) (broadcastInDim S100000 ![] bcast_S_S100000 (constant (F := Ideal) S_ .f32 0x3F800000#32))
    (maximumf (degOf e) (broadcastInDim S100000 ![] bcast_S_S100000 (constant (F := Ideal) S_ .f32 0x3F800000#32)))

/-- The mean's weight per node: the reciprocal in-degree, zero for a node with no incoming edge. -/
def degInvOf (e : (⟨S2x1600000, .i32⟩ : BufTy).Contents (Elt Ideal)) : FVec Ideal S100000 .f32 :=
  select (hasEdge e) (recipDeg e) (broadcastInDim S100000 ![] bcast_S_S100000 (constant (F := Ideal) S_ .f32 0x00000000#32))

/-- Mean aggregation: gather the rows of `h` at the edges' sources (a negative index wrapped round), add them at the
    destinations, scale each node's sum by its weight. -/
def aggOf (h : FVec Ideal S100000x128 .f32) (src dst : (⟨S1600000, .i32⟩ : BufTy).Contents (Elt Ideal))
    (w : FVec Ideal S100000 .f32) : FVec Ideal S100000x128 .f32 :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1
      (broadcastInDim S100000x1 ![0] bcast_S100000_S100000x1_0 w))

/-! ## Each stretch, from any contents `W` -/

section Stretches

variable (W : Valuation τ sig (Elt Ideal))

/-! ### The first stretch: the edges' nodes and the degrees -/

theorem s0_src : after hostOps0 W (Proc.devRef .tc main_v1) = srcOf (W (Proc.devRef .tc main_arg1)) := by
  dsimp only [hostOps0]; after_results_simp; rfl
theorem s0_dst : after hostOps0 W (Proc.devRef .tc main_v3) = dstOf (W (Proc.devRef .tc main_arg1)) := by
  dsimp only [hostOps0]; after_results_simp; rfl
theorem s0_hasEdge : after hostOps0 W (Proc.devRef .tc main_v9) = hasEdge (W (Proc.devRef .tc main_arg1)) := by
  dsimp only [hostOps0]; after_results_simp; rfl
theorem s0_recip : after hostOps0 W (Proc.devRef .tc main_v13) = recipDeg (W (Proc.devRef .tc main_arg1)) := by
  dsimp only [hostOps0]; after_results_simp; rfl
theorem s0_zero : after hostOps0 W (Proc.devRef .tc main_cst_4) = constant (F := Ideal) S_ .f32 0x00000000#32 := by
  dsimp only [hostOps0]; after_results_simp

/-! ### The second stretch: the called select -/

theorem s1_select :
    after hostOps0_1 W (Proc.devRef .tc main_v14)
      = select (W (Proc.devRef .tc main_v9)) (W (Proc.devRef .tc main_v13))
          (broadcastInDim S100000 ![] bcast_S_S100000 (W (Proc.devRef .tc main_cst_4))) := by
  dsimp only [hostOps0_1]; after_results_simp; rfl

/-! ### The third stretch: the first aggregation and the first bias row -/

theorem s2_agg :
    after hostOps0_2 W (Proc.devRef .tc main_v27)
      = aggOf (W (Proc.devRef .tc main_arg0)) (W (Proc.devRef .tc main_v1)) (W (Proc.devRef .tc main_v3))
          (W (Proc.devRef .tc main_v14)) := by
  dsimp only [hostOps0_2]; after_results_simp; rfl
theorem s2_bias :
    after hostOps0_2 W (Proc.devRef .tc main_v28) = shapeCast S1x128 (W (Proc.devRef .tc main_arg3)) shapeCasts_S128_S1x128 := by
  dsimp only [hostOps0_2]; after_results_simp; rfl

/-! ### The stretch between the regions: the second aggregation and the second bias row -/

theorem s3_agg :
    after hostOps1 W (Proc.devRef .tc main_v42)
      = aggOf (W (Proc.devRef .tc main_v29)) (W (Proc.devRef .tc main_v1)) (W (Proc.devRef .tc main_v3))
          (W (Proc.devRef .tc main_v14)) := by
  dsimp only [hostOps1]; after_results_simp; rfl
theorem s3_bias :
    after hostOps1 W (Proc.devRef .tc main_v43) = shapeCast S1x128 (W (Proc.devRef .tc main_arg6)) shapeCasts_S128_S1x128 := by
  dsimp only [hostOps1]; after_results_simp; rfl

/-! ### What a stretch does not write it leaves -/

theorem s0_keep_arg0 : after hostOps0 W (Proc.devRef .tc main_arg0) = W (Proc.devRef .tc main_arg0) := by
  dsimp only [hostOps0]; after_results_simp
theorem s0_keep_arg2 : after hostOps0 W (Proc.devRef .tc main_arg2) = W (Proc.devRef .tc main_arg2) := by
  dsimp only [hostOps0]; after_results_simp
theorem s0_keep_arg3 : after hostOps0 W (Proc.devRef .tc main_arg3) = W (Proc.devRef .tc main_arg3) := by
  dsimp only [hostOps0]; after_results_simp
theorem s0_keep_arg4 : after hostOps0 W (Proc.devRef .tc main_arg4) = W (Proc.devRef .tc main_arg4) := by
  dsimp only [hostOps0]; after_results_simp
theorem s0_keep_arg5 : after hostOps0 W (Proc.devRef .tc main_arg5) = W (Proc.devRef .tc main_arg5) := by
  dsimp only [hostOps0]; after_results_simp
theorem s0_keep_arg6 : after hostOps0 W (Proc.devRef .tc main_arg6) = W (Proc.devRef .tc main_arg6) := by
  dsimp only [hostOps0]; after_results_simp
theorem s0_keep_arg7 : after hostOps0 W (Proc.devRef .tc main_arg7) = W (Proc.devRef .tc main_arg7) := by
  dsimp only [hostOps0]; after_results_simp
theorem s1_keep_v1 : after hostOps0_1 W (Proc.devRef .tc main_v1) = W (Proc.devRef .tc main_v1) := by
  dsimp only [hostOps0_1]; after_results_simp
theorem s1_keep_v3 : after hostOps0_1 W (Proc.devRef .tc main_v3) = W (Proc.devRef .tc main_v3) := by
  dsimp only [hostOps0_1]; after_results_simp
theorem s1_keep_arg0 : after hostOps0_1 W (Proc.devRef .tc main_arg0) = W (Proc.devRef .tc main_arg0) := by
  dsimp only [hostOps0_1]; after_results_simp
theorem s1_keep_arg2 : after hostOps0_1 W (Proc.devRef .tc main_arg2) = W (Proc.devRef .tc main_arg2) := by
  dsimp only [hostOps0_1]; after_results_simp
theorem s1_keep_arg3 : after hostOps0_1 W (Proc.devRef .tc main_arg3) = W (Proc.devRef .tc main_arg3) := by
  dsimp only [hostOps0_1]; after_results_simp
theorem s1_keep_arg4 : after hostOps0_1 W (Proc.devRef .tc main_arg4) = W (Proc.devRef .tc main_arg4) := by
  dsimp only [hostOps0_1]; after_results_simp
theorem s1_keep_arg5 : after hostOps0_1 W (Proc.devRef .tc main_arg5) = W (Proc.devRef .tc main_arg5) := by
  dsimp only [hostOps0_1]; after_results_simp
theorem s1_keep_arg6 : after hostOps0_1 W (Proc.devRef .tc main_arg6) = W (Proc.devRef .tc main_arg6) := by
  dsimp only [hostOps0_1]; after_results_simp
theorem s1_keep_arg7 : after hostOps0_1 W (Proc.devRef .tc main_arg7) = W (Proc.devRef .tc main_arg7) := by
  dsimp only [hostOps0_1]; after_results_simp
theorem s2_keep_v1 : after hostOps0_2 W (Proc.devRef .tc main_v1) = W (Proc.devRef .tc main_v1) := by
  dsimp only [hostOps0_2]; after_results_simp
theorem s2_keep_v3 : after hostOps0_2 W (Proc.devRef .tc main_v3) = W (Proc.devRef .tc main_v3) := by
  dsimp only [hostOps0_2]; after_results_simp
theorem s2_keep_v14 : after hostOps0_2 W (Proc.devRef .tc main_v14) = W (Proc.devRef .tc main_v14) := by
  dsimp only [hostOps0_2]; after_results_simp
theorem s2_keep_arg0 : after hostOps0_2 W (Proc.devRef .tc main_arg0) = W (Proc.devRef .tc main_arg0) := by
  dsimp only [hostOps0_2]; after_results_simp
theorem s2_keep_arg2 : after hostOps0_2 W (Proc.devRef .tc main_arg2) = W (Proc.devRef .tc main_arg2) := by
  dsimp only [hostOps0_2]; after_results_simp
theorem s2_keep_arg4 : after hostOps0_2 W (Proc.devRef .tc main_arg4) = W (Proc.devRef .tc main_arg4) := by
  dsimp only [hostOps0_2]; after_results_simp
theorem s2_keep_arg5 : after hostOps0_2 W (Proc.devRef .tc main_arg5) = W (Proc.devRef .tc main_arg5) := by
  dsimp only [hostOps0_2]; after_results_simp
theorem s2_keep_arg6 : after hostOps0_2 W (Proc.devRef .tc main_arg6) = W (Proc.devRef .tc main_arg6) := by
  dsimp only [hostOps0_2]; after_results_simp
theorem s2_keep_arg7 : after hostOps0_2 W (Proc.devRef .tc main_arg7) = W (Proc.devRef .tc main_arg7) := by
  dsimp only [hostOps0_2]; after_results_simp
theorem s3_keep_v29 : after hostOps1 W (Proc.devRef .tc main_v29) = W (Proc.devRef .tc main_v29) := by
  dsimp only [hostOps1]; after_results_simp
theorem s3_keep_arg5 : after hostOps1 W (Proc.devRef .tc main_arg5) = W (Proc.devRef .tc main_arg5) := by
  dsimp only [hostOps1]; after_results_simp
theorem s3_keep_arg7 : after hostOps1 W (Proc.devRef .tc main_arg7) = W (Proc.devRef .tc main_arg7) := by
  dsimp only [hostOps1]; after_results_simp

end Stretches

/-! ## The boundaries: what each region finds -/

section Boundaries

/-- The edges' sources, at the first region's entry. -/
theorem entry0_src (c : Dev nD) : W3 m ρ c (Proc.devRef .tc main_v1) = srcOf (m ((c : Thread nD τ).loc main_arg1)) := by
  dsimp only [W3, W2, W1]
  rw [s2_keep_v1, s1_keep_v1, s0_src]
/-- The edges' destinations, at the first region's entry. -/
theorem entry0_dst (c : Dev nD) : W3 m ρ c (Proc.devRef .tc main_v3) = dstOf (m ((c : Thread nD τ).loc main_arg1)) := by
  dsimp only [W3, W2, W1]
  rw [s2_keep_v3, s1_keep_v3, s0_dst]
/-- The nodes' weights, at the first region's entry. -/
theorem entry0_w (c : Dev nD) : W3 m ρ c (Proc.devRef .tc main_v14) = degInvOf (m ((c : Thread nD τ).loc main_arg1)) := by
  dsimp only [W3, W2, W1]
  rw [s2_keep_v14, s1_select, s0_hasEdge, s0_recip, s0_zero]; rfl
/-- The first aggregation, as the first region finds it. -/
theorem entry0_agg (c : Dev nD) :
    V3 m ρ c main_v27 = aggOf (m ((c : Thread nD τ).loc main_arg0)) (srcOf (m ((c : Thread nD τ).loc main_arg1))) (dstOf (m ((c : Thread nD τ).loc main_arg1))) (degInvOf (m ((c : Thread nD τ).loc main_arg1))) := by
  dsimp only [V3, W3, W2, W1]
  rw [s2_agg, s1_keep_arg0, s1_keep_v1, s1_keep_v3, s1_select, s0_keep_arg0, s0_src, s0_dst, s0_hasEdge, s0_recip, s0_zero]; rfl
/-- The first bias, as the first region finds it: one row holding the vector. -/
theorem entry0_bias (c : Dev nD) (q : Fin 128) :
    (V3 m ρ c main_v28 : (⟨2, ![1, 128]⟩ : Shape).Idx → EReal) (ix2 (0 : Fin 1) q) = (m ((c : Thread nD τ).loc main_arg3)) (ix1 q) := by
  dsimp only [V3, W3, W2, W1]
  rw [s2_bias, s1_keep_arg3, s0_keep_arg3]
  exact shapeCast_a_1a_apply _ shapeCasts_S128_S1x128 0 q
theorem entry0_arg0 (c : Dev nD) : V3 m ρ c main_arg0 = (m ((c : Thread nD τ).loc main_arg0)) := by
  dsimp only [V3, W3, W2, W1]; rw [s2_keep_arg0, s1_keep_arg0, s0_keep_arg0]
theorem entry0_arg2 (c : Dev nD) : V3 m ρ c main_arg2 = (m ((c : Thread nD τ).loc main_arg2)) := by
  dsimp only [V3, W3, W2, W1]; rw [s2_keep_arg2, s1_keep_arg2, s0_keep_arg2]
theorem entry0_arg4 (c : Dev nD) : V3 m ρ c main_arg4 = (m ((c : Thread nD τ).loc main_arg4)) := by
  dsimp only [V3, W3, W2, W1]; rw [s2_keep_arg4, s1_keep_arg4, s0_keep_arg4]
theorem entry0_arg5 (c : Dev nD) : W3 m ρ c (Proc.devRef .tc main_arg5) = (m ((c : Thread nD τ).loc main_arg5)) := by
  dsimp only [W3, W2, W1]; rw [s2_keep_arg5, s1_keep_arg5, s0_keep_arg5]
theorem entry0_arg6 (c : Dev nD) : W3 m ρ c (Proc.devRef .tc main_arg6) = (m ((c : Thread nD τ).loc main_arg6)) := by
  dsimp only [W3, W2, W1]; rw [s2_keep_arg6, s1_keep_arg6, s0_keep_arg6]
theorem entry0_arg7 (c : Dev nD) : W3 m ρ c (Proc.devRef .tc main_arg7) = (m ((c : Thread nD τ).loc main_arg7)) := by
  dsimp only [W3, W2, W1]; rw [s2_keep_arg7, s1_keep_arg7, s0_keep_arg7]

/-- The second aggregation, as the second region finds it: the aggregation of whatever the first region left. -/
theorem entry1_agg (c : Dev nD) :
    V5 m ρ c main_v42 = aggOf (W4 m ρ c (Proc.devRef .tc main_v29)) (srcOf (m ((c : Thread nD τ).loc main_arg1))) (dstOf (m ((c : Thread nD τ).loc main_arg1))) (degInvOf (m ((c : Thread nD τ).loc main_arg1))) := by
  dsimp only [V5, W5]
  rw [s3_agg, W4_of_ne m ρ c main_v1 (by decide), W4_of_ne m ρ c main_v3 (by decide), W4_of_ne m ρ c main_v14 (by decide),
    entry0_src, entry0_dst, entry0_w]
/-- The hidden array, as the second region finds it. -/
theorem entry1_hidden (c : Dev nD) : V5 m ρ c main_v29 = W4 m ρ c (Proc.devRef .tc main_v29) := by
  dsimp only [V5, W5]; rw [s3_keep_v29]
/-- The second bias, as the second region finds it. -/
theorem entry1_bias (c : Dev nD) (q : Fin 128) :
    (V5 m ρ c main_v43 : (⟨2, ![1, 128]⟩ : Shape).Idx → EReal) (ix2 (0 : Fin 1) q) = (m ((c : Thread nD τ).loc main_arg6)) (ix1 q) := by
  dsimp only [V5, W5]
  rw [s3_bias, W4_of_ne m ρ c main_arg6 (by decide), entry0_arg6]
  exact shapeCast_a_1a_apply _ shapeCasts_S128_S1x128 0 q
theorem entry1_arg5 (c : Dev nD) : V5 m ρ c main_arg5 = (m ((c : Thread nD τ).loc main_arg5)) := by
  dsimp only [V5, W5]; rw [s3_keep_arg5, W4_of_ne m ρ c main_arg5 (by decide), entry0_arg5]
theorem entry1_arg7 (c : Dev nD) : V5 m ρ c main_arg7 = (m ((c : Thread nD τ).loc main_arg7)) := by
  dsimp only [V5, W5]; rw [s3_keep_arg7, W4_of_ne m ρ c main_arg7 (by decide), entry0_arg7]

end Boundaries

/-! ## The same computations in the reference's words -/

/-- The kernel program's first aggregation is the reference's. -/
theorem agg_first (x0 : FVec Ideal S100000x128 .f32) (x1 : (⟨S2x1600000, .i32⟩ : BufTy).Contents (Elt Ideal)) :
    aggOf x0 (srcOf x1) (dstOf x1) (degInvOf x1) = val_main_v27 (F := Ideal) x0 x1 := rfl

/-- The kernel program's aggregation of the reference's hidden array is the reference's second aggregation. -/
theorem agg_second (x0 : FVec Ideal S100000x128 .f32) (x1 : (⟨S2x1600000, .i32⟩ : BufTy).Contents (Elt Ideal)) (x2 : FVec Ideal S128x128 .f32) (x3 : FVec Ideal S128 .f32)
    (x4 : FVec Ideal S128x128 .f32) :
    aggOf (val_main_v34 (F := Ideal) x0 x1 x2 x3 x4) (srcOf x1) (dstOf x1) (degInvOf x1)
      = val_main_v47 (F := Ideal) x0 x1 x2 x3 x4 := rfl

end Cert.Sage.Host

end
-- ==== Proof.RefLayers.lean ====
/-
  The reference's two layers, entry by entry.

  Read one operation at a time, the reference's hidden array is, at row `r` and lane `q`,

      max ((∑ k, agg₁ (r, k) * W1_l (k, q)) + b1 q + (∑ k, x (r, k) * W1_r (k, q))) 0

  with `agg₁` its own first aggregation of `x` over the edges, and its result is

      (∑ k, agg₂ (r, k) * W2_l (k, q)) + b2 q + (∑ k, h (r, k) * W2_r (k, q))

  with `h` that hidden array and `agg₂` its aggregation: each `dot_general` is the sum over its one contracted axis,
  each bias a vector broadcast along the rows, the clamp a maximum against the zero word.
-/
import proofs.«113111_j17678085391128_1_alg».proof.Proof.RefReadPatched
import proofs.«113111_j17678085391128_1_alg».proof.Proof.DenseBlock

noncomputable section

open scoped BigOperators

namespace Cert.Sage.Ref

open Cert.ReferenceIdeal Cert.ReferenceIdeal.ReadP Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The hidden array is the first layer, clamped, of the first aggregation and the features. -/
theorem hidden_is_layer :
    IsReluLayer (val_main_v34 (F := Ideal) x0 x1 x2 x3 x4) (val_main_v27 (F := Ideal) x0 x1) x0 x2 x4 x3 := by
  intro r q
  have l28 : ∀ k : Fin 128, lidx_main_v28 (ix2 r q) k = ix2 r k := fun k => funext fun a => by
    match a with | ⟨0, _⟩ => rfl | ⟨1, _⟩ => rfl
  have r28 : ∀ k : Fin 128, ridx_main_v28 (ix2 r q) k = ix2 k q := fun k => funext fun a => by
    match a with | ⟨0, _⟩ => rfl | ⟨1, _⟩ => rfl
  have l32 : ∀ k : Fin 128, lidx_main_v32 (ix2 r q) k = ix2 r k := fun k => funext fun a => by
    match a with | ⟨0, _⟩ => rfl | ⟨1, _⟩ => rfl
  have r32 : ∀ k : Fin 128, ridx_main_v32 (ix2 r q) k = ix2 k q := fun k => funext fun a => by
    match a with | ⟨0, _⟩ => rfl | ⟨1, _⟩ => rfl
  have ib : idx_main_v29 (idx_main_v30 (ix2 r q)) = ix1 q := funext fun a => by
    match a with | ⟨0, _⟩ => rfl
  rw [val_main_v34_apply, val_main_v33_apply, val_main_v31_apply, val_main_v28_apply, val_main_v32_apply,
    val_main_v30_apply, val_main_v29_apply, val_main_call1_v0_apply, val_main_call1_cst_apply]
  simp only [l28, r28, l32, r32, ib]
  rfl

/-- The result is the second layer of the second aggregation and the hidden array. -/
theorem result_is_layer :
    IsLayer (val_main_v53 (F := Ideal) x0 x1 x2 x3 x4 x5 x6 x7) (val_main_v47 (F := Ideal) x0 x1 x2 x3 x4)
      (val_main_v34 (F := Ideal) x0 x1 x2 x3 x4) x5 x7 x6 := by
  intro r q
  have l48 : ∀ k : Fin 128, lidx_main_v48 (ix2 r q) k = ix2 r k := fun k => funext fun a => by
    match a with | ⟨0, _⟩ => rfl | ⟨1, _⟩ => rfl
  have r48 : ∀ k : Fin 128, ridx_main_v48 (ix2 r q) k = ix2 k q := fun k => funext fun a => by
    match a with | ⟨0, _⟩ => rfl | ⟨1, _⟩ => rfl
  have l52 : ∀ k : Fin 128, lidx_main_v52 (ix2 r q) k = ix2 r k := fun k => funext fun a => by
    match a with | ⟨0, _⟩ => rfl | ⟨1, _⟩ => rfl
  have r52 : ∀ k : Fin 128, ridx_main_v52 (ix2 r q) k = ix2 k q := fun k => funext fun a => by
    match a with | ⟨0, _⟩ => rfl | ⟨1, _⟩ => rfl
  have ib : idx_main_v49 (idx_main_v50 (ix2 r q)) = ix1 q := funext fun a => by
    match a with | ⟨0, _⟩ => rfl
  rw [val_main_v53_apply, val_main_v51_apply, val_main_v48_apply, val_main_v52_apply, val_main_v50_apply, val_main_v49_apply]
  simp only [l48, r48, l52, r52, ib]
  rfl

end Cert.Sage.Ref

end
-- ==== Proof.KernelRun.lean ====
/-
  The idealized kernel's run with its result named.

  @main is six segments: three stretches of host operations, the first region, a fourth stretch, the second region.
  The buffer contents at each boundary are a fold from the launch memory; after the last segment every unscoped buffer
  holds the last boundary's contents. Read at the result buffer this says: every weakly fair execution terminates,
  nothing faulting, with the result at what the second region leaves in its output array, and the arguments as launched.
-/
import proofs.«113111_j17678085391128_1_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, the result buffer at the last boundary's
    contents and the arguments unchanged. -/
theorem result_at_last_boundary : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.Sage.Run

end
-- ==== Proof.Bridge.lean ====
/-
  The idealized kernel computes the reference's result.

  The first region finds the reference's first aggregation, the features, the first layer's weights and the first
  bias as a row, so it leaves the reference's hidden array (the layer clamped at zero; the two programs add the
  bias at different places in the sum, which is the same extended real). The host operations between the regions
  aggregate that array exactly as the reference aggregates its own, so the second region finds the reference's
  second aggregation and hidden array, and leaves the reference's result. The run of the kernel program, with its
  result buffer read at what the second region leaves, then ends at the reference's last stage of the arguments.
-/
import proofs.«113111_j17678085391128_1_alg».proof.Proof.Region0
import proofs.«113111_j17678085391128_1_alg».proof.Proof.Region1
import proofs.«113111_j17678085391128_1_alg».proof.Proof.HostStretches
import proofs.«113111_j17678085391128_1_alg».proof.Proof.RefLayers
import proofs.«113111_j17678085391128_1_alg».proof.Proof.KernelRun

noncomputable section

namespace Cert.Sage.Bridge

open Cert.KernelIdeal Cert.KernelIdeal.Gen Idealize.ShloMosaic Idealize.ShloMosaic.TcCoe Idealize.SL.Sem
open Idealize.ShloMosaic.ValueIdx
open Cert.ReferenceIdeal.ReadP

variable (m : (ℓ : Loc nD τ sig) → Buf (Elt Ideal) ℓ) (ρ : Dev nD → PrngReg)

/-- What the first region leaves in its output array: the reference's hidden array of the arguments. -/
theorem hidden (c : Dev nD) :
    W4 m ρ c (Proc.devRef .tc main_v29)
      = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ?_
  refine Region0.array (V3 m ρ) c _ (m ((c : Thread nD τ).loc main_arg3)) (Host.entry0_bias m ρ c) ?_
  rw [Host.entry0_agg, Host.agg_first, Host.entry0_arg0, Host.entry0_arg2, Host.entry0_arg4]
  exact Ref.hidden_is_layer _ _ _ _ _

/-- What the second region leaves in its output array: the reference's result of the arguments. -/
theorem result (c : Dev nD) :
    W6 m ρ c (Proc.devRef .tc main_v44)
      = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 5).trans ?_
  refine Region1.array (V5 m ρ) c _ (m ((c : Thread nD τ).loc main_arg6)) (Host.entry1_bias m ρ c) ?_
  rw [Host.entry1_agg, Host.entry1_hidden, hidden, Host.agg_second, Host.entry1_arg5, Host.entry1_arg7]
  exact Ref.result_is_layer _ _ _ _ _ _ _ _

/-- The idealized kernel's run: it terminates, nothing faulting, with its result at the reference's last stage of its
    own arguments, and the arguments unchanged. -/
theorem kernel_run : θ_run defs (onTc (τ := τ) (main (F := Ideal))) ⟨m, fun _ => 0, ρ⟩ (fun r => ∀ c : Dev nD,
      r.2.mem ((c.tc : Thread nD τ).loc main_v44)
        = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Run.result_at_last_boundary m ρ)

end Cert.Sage.Bridge

end
-- ==== Proof.lean ====
/-
  Two layers of mean-aggregation graph convolution: a tiled kernel program against its array-at-once reference.

  Both programs take node features `x` (100000 nodes, 128 lanes), an edge list, and per layer two 128 x 128 weight
  matrices and a bias, and compute

      h   = max (mean_agg x · W1_l + b1 + x · W1_r) 0
      out = mean_agg h · W2_l + b2 + h · W2_r

  where `mean_agg v` sums the rows of `v` at every edge's source into the edge's destination and divides by the
  destination's in-degree (zero where there is none). The kernel program leaves the aggregation to the host, with the
  reference's own operations, and computes each dense layer in a region of 20 grid points, 5000 rows each, its
  matrix products on operands rounded to bf16 and the bias added after both products.

  At the exact instance the rounding is the identity, a matrix product into a zero accumulator is the plain sum over
  the contracted axis, and the two orders of adding the bias give the same extended real, sums of extended reals being
  commutative and associative with no finiteness needed — the precondition is never opened. So each region leaves the
  corresponding array of the reference (Region0, Region1 over DenseBlock; the host stretches read in HostStretches;
  the reference's layers in RefLayers), and the kernel program's run ends at the reference's last stage (Bridge over
  KernelRun). The three frames are the generated ones (the reference's is its run with the result dropped); no
  operation was rewritten by the idealization, so there is nothing to preserve.
-/
import proofs.«113111_j17678085391128_1_alg».proof.Defs
import proofs.«113111_j17678085391128_1_alg».proof.Proof.Gen.Kernel
import proofs.«113111_j17678085391128_1_alg».proof.Proof.Gen.Kernel.Skeleton
import proofs.«113111_j17678085391128_1_alg».proof.Proof.Gen.Kernel.Launch
import proofs.«113111_j17678085391128_1_alg».proof.Proof.Gen.Kernel.Points
import proofs.«113111_j17678085391128_1_alg».proof.Proof.Gen.Kernel.Frame
import proofs.«113111_j17678085391128_1_alg».proof.Proof.Gen.KernelIdeal
import proofs.«113111_j17678085391128_1_alg».proof.Proof.Gen.KernelIdeal.Skeleton
import proofs.«113111_j17678085391128_1_alg».proof.Proof.Gen.KernelIdeal.Launch
import proofs.«113111_j17678085391128_1_alg».proof.Proof.Gen.KernelIdeal.Points
import proofs.«113111_j17678085391128_1_alg».proof.Proof.Gen.KernelIdeal.Frame
import proofs.«113111_j17678085391128_1_alg».proof.Proof.Gen.ReferenceIdeal
import proofs.«113111_j17678085391128_1_alg».proof.Proof.Gen.Pre_finite_inputs
import Idealize.ShloMosaic.Adequacy
import Idealize.ShloMosaic.Init
import proofs.«113111_j17678085391128_1_alg».proof.Proof.RefRunPatched
import proofs.«113111_j17678085391128_1_alg».proof.Proof.RefReadPatched
import proofs.«113111_j17678085391128_1_alg».proof.Proof.Bridge

noncomputable section

namespace Cert.Proof

open Idealize.ShloMosaic Idealize.SL.Sem

namespace SageClaims

/-- The printed kernel program runs and keeps its arguments. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference runs and keeps its arguments: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- From memories agreeing on the arguments both idealized programs end with the reference's last stage of those
    arguments in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.Sage.Bridge.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

end SageClaims

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, trivial, SageClaims.algebraic⟩

end Cert.Proof

end
